-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x128 : Shape := ⟨4, ![2, 16, 2048, 128]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel

variable [Facts]

def fn {F : FTy → Type} [FloatOps F] (main_arg0 : FVec F S2x16x2048x128 .f32) (main_arg1 : FVec F S2x16x2048x128 .f32) (main_arg2 : FVec F S2x16x2048x128 .f32) : IVec S_ 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x2048x128 .f32 := Host.absf main_arg1
  let main_cst_0 : FVec F S_ .f32 := constant S_ .f32 0x7F800000#32
  let main_v5 : FVec F S2x16x2048x128 .f32 := broadcastInDim S2x16x2048x128 ![] bcast_S_S2x16x2048x128 main_cst_0
  let main_v6 : IVec S2x16x2048x128 1 := cmpf .olt main_v4 main_v5
  let main_c_1 : IVec S_ 1 := constantI S_ 1 1#1
  let main_v7 : IVec S_ 1 := (fun x v => Host.reduce IntOp.andi x v reducesTo_S2x16x2048x128_S_d0_1_2_3 h_S_) main_v6 main_c_1
  let main_v8 : IVec S_ 1 := andi main_v3 main_v7
  let main_v9 : FVec F S2x16x2048x128 .f32 := Host.absf main_arg2
  let main_cst_2 : FVec F S_ .f32 := constant S_ .f32 0x7F800000#32
  let main_v10 : FVec F S2x16x2048x128 .f32 := broadcastInDim S2x16x2048x128 ![] bcast_S_S2x16x2048x128 main_cst_2
  let main_v11 : IVec S2x16x2048x128 1 := cmpf .olt main_v9 main_v10
  let main_c_3 : IVec S_ 1 := constantI S_ 1 1#1
  let main_v12 : IVec S_ 1 := (fun x v => Host.reduce IntOp.andi x v reducesTo_S2x16x2048x128_S_d0_1_2_3 h_S_) main_v11 main_c_3
  let main_v13 : IVec S_ 1 := andi main_v8 main_v12
  main_v13
-- ==== Kernel.lean ====
abbrev S2x16x2048x128 : Shape := ⟨4, ![2, 16, 2048, 128]⟩
abbrev S32x2048x128 : Shape := ⟨3, ![32, 2048, 128]⟩
abbrev S1x1024x128 : Shape := ⟨3, ![1, 1024, 128]⟩
abbrev S1x2048x128 : Shape := ⟨3, ![1, 2048, 128]⟩
abbrev S2048x128 : Shape := ⟨2, ![2048, 128]⟩
abbrev S1024x128 : Shape := ⟨2, ![1024, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S32x2048x128, .f32⟩
  | .hbm, ⟨4, _⟩ => ⟨S32x2048x128, .f32⟩
  | .hbm, ⟨5, _⟩ => ⟨S32x2048x128, .f32⟩
  | .hbm, ⟨6, _⟩ => ⟨S32x2048x128, .f32⟩
  | .hbm, ⟨7, _⟩ => ⟨S2x16x2048x128, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x1024x128, .f32⟩
  | .local _ .vmem, ⟨7, _⟩ => ⟨S1x1024x128, .f32⟩
  | .local _ .vmem, ⟨8, _⟩ => ⟨S2048x128, .bf16⟩
  | .local _ .vmem, ⟨9, _⟩ => ⟨S2048x128, .bf16⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x16x2048x128_S32x2048x128 : S2x16x2048x128.ShapeCasts S32x2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S1024x2048_S1024 : S1024x2048.Reduces [1] S1024
  shapeCasts_S1024_S1024x1 : S1024.ShapeCasts S1024x1
  broadcasts_S1024x1_S1024x2048 : S1024x1.Broadcasts S1024x2048
  shapeCasts_S1024x128_S1x1024x128 : S1024x128.ShapeCasts S1x1024x128
  shapeCasts_S32x2048x128_S2x16x2048x128 : S32x2048x128.ShapeCasts S2x16x2048x128
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S32x2048x128.size a
  hwx0_0 : ∀ i : grid0.Coords, EltTy.bits .f32 = 32 ∨ (Rect.block (s := S32x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S32x2048x128.size a
  hwx0_1 : ∀ i : grid0.Coords, EltTy.bits .f32 = 32 ∨ (Rect.block (s := S32x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S32x2048x128.size a
  hwx0_2 : ∀ i : grid0.Coords, EltTy.bits .f32 = 32 ∨ (Rect.block (s := S32x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S32x2048x128.size a
  hwx0_3 : ∀ i : grid0.Coords, EltTy.bits .f32 = 32 ∨ (Rect.block (s := S32x2048x128) S1x1024x128.size (cc0_transform_3 i) (hinb0_3 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16x2048x128 : Shape := ⟨4, ![2, 16, 2048, 128]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S2x16x2048x2048, .f32⟩
  | .hbm, ⟨4, _⟩ => ⟨S_, .f32⟩
  | .hbm, ⟨5, _⟩ => ⟨S2x16x2048x2048, .f32⟩
  | .hbm, ⟨6, _⟩ => ⟨S2x16x2048x2048, .f32⟩
  | .hbm, ⟨7, _⟩ => ⟨S_, .f32⟩
  | .hbm, ⟨8, _⟩ => ⟨S2x16x2048, .f32⟩
  | .hbm, ⟨9, _⟩ => ⟨S_, .f32⟩
  | .hbm, ⟨10, _⟩ => ⟨S2x16x2048, .f32⟩
  | .hbm, ⟨11, _⟩ => ⟨S2x16x2048, .f32⟩
  | .hbm, ⟨12, _⟩ => ⟨S2x16x2048x1, .f32⟩
  | .hbm, ⟨13, _⟩ => ⟨S2x16x2048x2048, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x2048x128, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.Spec.lean ====
/-
  Scaled dot-product attention, one output entry at a time, on the extended reals.

  For one query row `q` (128 entries), the keys `kk` (2048 rows of 128) and one column `v` of the values
  (2048 entries): the score of key `k` is the dot product of `q` with row `k` of the keys, scaled by one fixed
  number `c`; the weights are the exponentials of the scores less their greatest, each divided by the sum of them
  all; the output entry is the weighted sum of the column.

  The scale can be applied to the query row before the dot product or to the dot product afterwards. On the
  extended reals the two agree when every entry involved is a real number, because then the products and sums
  are those of the reals, where multiplication distributes over a finite sum. (With an infinite entry they
  need not agree: that is why the statement carries the finiteness of the queries and keys.)
-/
import Idealize.ShloMosaic.PureOps.Ideal
import Idealize.ShloMosaic.Lib.ValueIdx

noncomputable section

open scoped BigOperators

namespace Cert.Attn

open Idealize.ShloMosaic Idealize.ShloMosaic.ValueIdx

/-- The scale `c`: the extended real the f32 word nearest to `1/√128` denotes. -/
def scaleW : EReal := Ideal.ofBits .f32 0x3DB504F3#32

/-- The scale is a real number (the word is a normal f32, neither an infinity nor a NaN). -/
theorem scaleW_real : ∃ c : ℝ, scaleW = (c : EReal) := by
  have h1 : scaleW ≠ ⊤ := by simp [scaleW, Ideal.ofBits, Ideal.ieee, -EReal.coe_mul]
  have h2 : scaleW ≠ ⊥ := by simp [scaleW, Ideal.ofBits, Ideal.ieee, -EReal.coe_mul]
  exact ⟨scaleW.toReal, (EReal.coe_toReal h1 h2).symm⟩

/-- The greatest of 2048 scores, as a fold of `max` from the f32 word of `-∞`. -/
def rowMax (s : Fin 2048 → EReal) : EReal :=
  (Finset.univ : Finset (Fin 2048)).fold max (Ideal.ofBits .f32 0xFF800000#32) s

/-- The softmax weights of the scores `s` applied to the column `v`:
    `∑ₖ (exp (sₖ - max s) / ∑ⱼ exp (sⱼ - max s)) · vₖ`. -/
def softDot (s v : Fin 2048 → EReal) : EReal :=
  ∑ k : Fin 2048, Ideal.div (Ideal.exp (s k - rowMax s)) (∑ j : Fin 2048, Ideal.exp (s j - rowMax s)) * v k

/-- The score of key `k` with the scale applied to the dot product. -/
def scoreOut (q : Fin 128 → EReal) (kk : Fin 2048 → Fin 128 → EReal) (k : Fin 2048) : EReal :=
  (∑ d : Fin 128, q d * kk k d) * scaleW

/-- The score of key `k` with the scale applied to the query row first. -/
def scoreIn (q : Fin 128 → EReal) (kk : Fin 2048 → Fin 128 → EReal) (k : Fin 2048) : EReal :=
  ∑ d : Fin 128, (q d * scaleW) * kk k d

/-- The inclusion of the reals in the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For real queries and keys the two placements of the scale give the same score: both are the real number
    `(∑ qᵈ kᵈ) · c`, by distributivity in the reals. -/
theorem scoreIn_eq_scoreOut (q : Fin 128 → EReal) (kk : Fin 2048 → Fin 128 → EReal)
    (hq : ∀ d, ∃ r : ℝ, q d = (r : EReal)) (hk : ∀ k d, ∃ r : ℝ, kk k d = (r : EReal)) :
    scoreIn q kk = scoreOut q kk := by
  choose qr hqr using hq
  choose kr hkr using hk
  obtain ⟨c, hc⟩ := scaleW_real
  funext k
  unfold scoreIn scoreOut
  simp only [hqr, hkr, hc, ← EReal.coe_mul, ← coe_sum]
  refine congrArg _ ?_
  rw [Finset.sum_mul]
  exact Finset.sum_congr rfl fun d _ => by ring

/-- The batched shapes: queries, keys, values and the result as `[2, 16, 2048, 128]`. -/
abbrev S4 : Shape := ⟨4, ![2, 16, 2048, 128]⟩

/-- Attention over `[2, 16, 2048, 128]` arrays, entry `(b, h, r, e)`: query row `(b, h, r)` against the keys of
    `(b, h)`, scale applied to the dot products, weights applied to column `e` of the values of `(b, h)`. -/
def attn4 (x0 x1 x2 : S4.Idx → EReal) (i : S4.Idx) : EReal :=
  softDot
    (scoreOut (fun d : Fin 128 => x0 (ix4 (i 0 : Fin 2) (i 1 : Fin 16) (i 2 : Fin 2048) d))
      (fun (k : Fin 2048) (d : Fin 128) => x1 (ix4 (i 0 : Fin 2) (i 1 : Fin 16) k d)))
    (fun k : Fin 2048 => x2 (ix4 (i 0 : Fin 2) (i 1 : Fin 16) k (i 3 : Fin 128)))

end Cert.Attn

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.KernelRow.lean ====
/-
  One entry of the kernel's output block, as a function of the three blocks the body reads.

  The body takes a block of 1024 query rows, the 2048 key rows and the 2048 value rows of one head. It scales the
  query rows by `c`, takes their dot products with every key row (the scores, a 1024 × 2048 matrix), subtracts from
  each row of scores its greatest, exponentiates, divides each row by its sum, and multiplies the weights into the
  values. Read at row `r` and column `e` this is the softmax-weighted sum of column `e` of the values, the weights
  those of the scores of query row `r`: every step looks at row `r` of the scores only.

  The changes of float format on the way into the two matrix products are the identity on the extended reals,
  and the matrix products into a zero accumulator are plain sums over the contracted axis.
-/
import proofs.«166822_j21723944583211_2_alg».proof.Proof.Gen.KernelIdeal.Skeleton
import proofs.«166822_j21723944583211_2_alg».proof.Proof.Spec
import proofs.«166822_j21723944583211_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RowValue

open Cert.KernelIdeal Cert.KernelIdeal.Gen Idealize.ShloMosaic Idealize.ShloMosaic.ValueIdx Cert.Attn Cert.LibKeepdims

/-- The dimension numbers of the scores product: query rows × key rows, both contracted on their second axis. -/
abbrev dotQK : DotDims S1024x128 S2048x128 S1024x2048 := dot_S1024x128_S2048x128_S1024x2048_1_1_0_0_n_n
/-- The dimension numbers of the output product: weights × values, an ordinary matrix product. -/
abbrev dotPV : DotDims S1024x2048 S2048x128 S1024x128 := dot_S1024x2048_S2048x128_S1024x128_1_0_0_1_n_n

/-! ## The two matrix products read at an entry -/

theorem lhsQK_0 (i : S1024x2048.Idx) (q : dotQK.contr.Idx) : (dotQK.lhsIdx i q 0).val = (i 0).val := by
  unfold DotDims.lhsIdx
  rw [dif_neg (show ¬(0 : Fin S1024x128.rank) ∈ dotQK.lhsBatch by decide), dif_pos (show (0 : Fin S1024x128.rank) ∈ dotQK.lhsNonContracting by decide)]
  rfl
theorem lhsQK_1 (i : S1024x2048.Idx) (q : dotQK.contr.Idx) : (dotQK.lhsIdx i q 1).val = (q ⟨0, by decide⟩).val :=
  dotQK.lhsIdx_val_of_single rfl i q
theorem rhsQK_0 (i : S1024x2048.Idx) (q : dotQK.contr.Idx) : (dotQK.rhsIdx i q 0).val = (i 1).val := by
  unfold DotDims.rhsIdx
  rw [dif_neg (show ¬(0 : Fin S2048x128.rank) ∈ dotQK.rhsBatch by decide), dif_pos (show (0 : Fin S2048x128.rank) ∈ dotQK.rhsNonContracting by decide)]
  rfl
theorem rhsQK_1 (i : S1024x2048.Idx) (q : dotQK.contr.Idx) : (dotQK.rhsIdx i q 1).val = (q ⟨0, by decide⟩).val :=
  dotQK.rhsIdx_val_of_single rfl i q

/-- The scores product into a zero accumulator: entry `(r, k)` is the dot product of row `r` of the left operand
    with row `k` of the right one. -/
theorem scores_apply (a : FVec Ideal S1024x128 .bf16) (b : FVec Ideal S2048x128 .bf16) (r : Fin 1024) (k : Fin 2048) :
    matmul dotQK none a b (constant (F := Ideal) S1024x2048 .f32 0x00000000#32) (ix2 r k)
      = ∑ d : Fin 128, a (ix2 r d) * b (ix2 k d) := by
  simp only [matmul]
  rw [Ideal.matmul_constant_zero_apply, ← Equiv.sum_comp (contrEquiv1 dotQK 128 rfl rfl).symm]
  refine Finset.sum_congr rfl fun d _ => ?_
  have hd := contrEquiv1_symm_val dotQK 128 rfl rfl d
  have el : dotQK.lhsIdx (ix2 r k) ((contrEquiv1 dotQK 128 rfl rfl).symm d) = ix2 r d := funext fun c => Fin.ext (by
    match c with
    | ⟨0, _⟩ => exact lhsQK_0 _ _
    | ⟨1, _⟩ => exact (lhsQK_1 _ _).trans hd)
  have er : dotQK.rhsIdx (ix2 r k) ((contrEquiv1 dotQK 128 rfl rfl).symm d) = ix2 k d := funext fun c => Fin.ext (by
    match c with
    | ⟨0, _⟩ => exact rhsQK_0 _ _
    | ⟨1, _⟩ => exact (rhsQK_1 _ _).trans hd)
  rw [el, er]

theorem lhsPV_0 (i : S1024x128.Idx) (q : dotPV.contr.Idx) : (dotPV.lhsIdx i q 0).val = (i 0).val := by
  unfold DotDims.lhsIdx
  rw [dif_neg (show ¬(0 : Fin S1024x2048.rank) ∈ dotPV.lhsBatch by decide), dif_pos (show (0 : Fin S1024x2048.rank) ∈ dotPV.lhsNonContracting by decide)]
  rfl
theorem lhsPV_1 (i : S1024x128.Idx) (q : dotPV.contr.Idx) : (dotPV.lhsIdx i q 1).val = (q ⟨0, by decide⟩).val :=
  dotPV.lhsIdx_val_of_single rfl i q
theorem rhsPV_0 (i : S1024x128.Idx) (q : dotPV.contr.Idx) : (dotPV.rhsIdx i q 0).val = (q ⟨0, by decide⟩).val :=
  dotPV.rhsIdx_val_of_single rfl i q
theorem rhsPV_1 (i : S1024x128.Idx) (q : dotPV.contr.Idx) : (dotPV.rhsIdx i q 1).val = (i 1).val := by
  unfold DotDims.rhsIdx
  rw [dif_neg (show ¬(1 : Fin S2048x128.rank) ∈ dotPV.rhsBatch by decide), dif_pos (show (1 : Fin S2048x128.rank) ∈ dotPV.rhsNonContracting by decide)]
  rfl

/-- The output product into a zero accumulator: entry `(r, e)` is the sum over `k` of the left operand at `(r, k)`
    times the right one at `(k, e)`. -/
theorem out_apply (a : FVec Ideal S1024x2048 .bf16) (b : FVec Ideal S2048x128 .bf16) (r : Fin 1024) (e : Fin 128) :
    matmul dotPV none a b (constant (F := Ideal) S1024x128 .f32 0x00000000#32) (ix2 r e)
      = ∑ k : Fin 2048, a (ix2 r k) * b (ix2 k e) := by
  simp only [matmul]
  rw [Ideal.matmul_constant_zero_apply, ← Equiv.sum_comp (contrEquiv1 dotPV 2048 rfl rfl).symm]
  refine Finset.sum_congr rfl fun k _ => ?_
  have hk := contrEquiv1_symm_val dotPV 2048 rfl rfl k
  have el : dotPV.lhsIdx (ix2 r e) ((contrEquiv1 dotPV 2048 rfl rfl).symm k) = ix2 r k := funext fun c => Fin.ext (by
    match c with
    | ⟨0, _⟩ => exact lhsPV_0 _ _
    | ⟨1, _⟩ => exact (lhsPV_1 _ _).trans hk)
  have er : dotPV.rhsIdx (ix2 r e) ((contrEquiv1 dotPV 2048 rfl rfl).symm k) = ix2 k e := funext fun c => Fin.ext (by
    match c with
    | ⟨0, _⟩ => exact (rhsPV_0 _ _).trans hk
    | ⟨1, _⟩ => exact rhsPV_1 _ _)
  rw [el, er]

/-! ## The greatest entry of a row, kept as a column -/

/-- The greatest entry along the second axis from the `-∞` pattern, read at row `p`: the fold of `max` over that
    row's entries. -/
theorem rowMax_apply (src : FVec Ideal S1024x2048 .f32) (h : S1024x2048.Reduces [1] S1024)
    (hφ : FKind.Formats .f32) (hacc : (0xFF800000#32 : BitVec 32) = 0xFF800000#32) (p : Fin 1024) :
    multiReduction .maximumf [1] S1024 src 0xFF800000#32 h hφ hacc (ix1 p) = rowMax (fun k : Fin 2048 => src (ix2 p k)) := by
  refine (Ideal.multiReduction_maximumf_single src 0xFF800000#32 h hφ hacc (ix1 p)).trans ?_
  unfold rowMax
  exact Finset.fold_congr fun k _ => congrArg src (lift_cols h p k)

/-- Kept as a column and spread over the row again, it reads the same at every column. -/
theorem rowMax_column_apply (src : FVec Ideal S1024x2048 .f32) (h : S1024x2048.Reduces [1] S1024)
    (hφ : FKind.Formats .f32) (hacc : (0xFF800000#32 : BitVec 32) = 0xFF800000#32)
    (hcast : S1024.ShapeCasts S1024x1) (hbc : S1024x1.Broadcasts S1024x2048) (p : Fin 1024) (q : Fin 2048) :
    broadcastTo S1024x2048 (shapeCast S1024x1 (multiReduction .maximumf [1] S1024 src 0xFF800000#32 h hφ hacc) hcast) hbc (ix2 p q)
      = rowMax (fun k : Fin 2048 => src (ix2 p k)) :=
  (broadcastTo_a1_ab_apply _ hbc p q).trans ((shapeCast_a_a1_apply _ hcast p 0).trans (rowMax_apply src h hφ hacc p))

/-- A quotient of two arrays narrowed to the short format, read at an entry: the narrowing is the identity. -/
theorem weight_apply (p l : FVec Ideal S1024x2048 .f32) (h : FTy.bits .bf16 < FTy.bits .f32) (i : S1024x2048.Idx) :
    truncf .bf16 (divf p l) h i = Ideal.div (p i) (l i) := rfl

/-- The exponential of a difference of two arrays, read at an entry. -/
theorem expSub_apply (s M : FVec Ideal S1024x2048 .f32) (i : S1024x2048.Idx) :
    exp (subf s M) i = Ideal.exp (s i - M i) := rfl

/-! ## The body's value, cut at the scores -/

/-- The scores: the scaled query rows against the key rows. -/
def scoresOf (v3 : FVec Ideal S1x1024x128 .f32) (v8 : FVec Ideal S2048x128 .bf16) : FVec Ideal S1024x2048 .f32 :=
  have v4 : FVec Ideal S1024x128 .f32 := shapeCast S1024x128 v3 shapeCasts_S1x1024x128_S1024x128
  have cst : Ideal .f32 := Scalar.ofBits .f32 0x3DB504F3#32
  have v5 : FVec Ideal S1024x128 .f32 := broadcast S1024x128 cst
  have v6 : FVec Ideal S1024x128 .f32 := mulf v4 v5
  have v7 : FVec Ideal S1024x128 .bf16 := truncf .bf16 v6 bitsLt_bf16_f32
  have cst_7 : FVec Ideal S1024x2048 .f32 := constant S1024x2048 .f32 0x00000000#32
  have v10 : FVec Ideal S1024x2048 .f32 := matmul dot_S1024x128_S2048x128_S1024x2048_1_1_0_0_n_n none v7 v8 cst_7
  v10

/-- From the scores to the output block: the row-wise softmax and the product with the values. -/
def softTail (v10 : FVec Ideal S1024x2048 .f32) (v9 : FVec Ideal S2048x128 .bf16) : FVec Ideal S1x1024x128 .f32 :=
  have v11 : FVec Ideal S1024 .f32 := multiReduction .maximumf [1] S1024 v10 0xFF800000#32 reduces_S1024x2048_S1024 (.inl rfl) rfl
  have v12 : FVec Ideal S1024x1 .f32 := shapeCast S1024x1 v11 shapeCasts_S1024_S1024x1
  have v13 : FVec Ideal S1024x2048 .f32 := broadcastTo S1024x2048 v12 broadcasts_S1024x1_S1024x2048
  have v14 : FVec Ideal S1024x2048 .f32 := subf v10 v13
  have v15 : FVec Ideal S1024x2048 .f32 := exp v14
  have v16 : FVec Ideal S1024 .f32 := multiReduction .add [1] S1024 v15 0x00000000#32 reduces_S1024x2048_S1024 (.inl rfl) rfl
  have v17 : FVec Ideal S1024x1 .f32 := shapeCast S1024x1 v16 shapeCasts_S1024_S1024x1
  have v18 : FVec Ideal S1024x2048 .f32 := broadcastTo S1024x2048 v17 broadcasts_S1024x1_S1024x2048
  have v19 : FVec Ideal S1024x2048 .f32 := divf v15 v18
  have v20 : FVec Ideal S1024x2048 .bf16 := truncf .bf16 v19 bitsLt_bf16_f32
  have cst_10 : FVec Ideal S1024x128 .f32 := constant S1024x128 .f32 0x00000000#32
  have v21 : FVec Ideal S1024x128 .f32 := matmul dot_S1024x2048_S2048x128_S1024x128_1_0_0_1_n_n none v20 v9 cst_10
  have v24 : FVec Ideal S1x1024x128 .f32 := shapeCast S1x1024x128 v21 shapeCasts_S1024x128_S1x1024x128
  v24

/-- The body's stored value is the second applied to the first. -/
theorem pay3_split (v3 : FVec Ideal S1x1024x128 .f32) (v8 v9 : FVec Ideal S2048x128 .bf16) :
    k0_pay3 (F := Ideal) v3 v8 v9 = softTail (scoresOf v3 v8) v9 := rfl

/-- A score: query row `r`, scaled, against key row `k`. -/
theorem scoresOf_apply (v3 : FVec Ideal S1x1024x128 .f32) (v8 : FVec Ideal S2048x128 .bf16) (r : Fin 1024) (k : Fin 2048) :
    scoresOf v3 v8 (ix2 r k)
      = scoreIn (fun d : Fin 128 => v3 (ix3 (0 : Fin 1) r d)) (fun (k : Fin 2048) (d : Fin 128) => v8 (ix2 k d)) k := by
  unfold scoresOf
  (try dsimp only)
  refine (scores_apply _ _ r k).trans ?_
  unfold scoreIn
  refine Finset.sum_congr rfl fun d _ => ?_
  refine congrArg (· * v8 (ix2 k d)) ?_
  show shapeCast S1024x128 v3 shapeCasts_S1x1024x128_S1024x128 (ix2 r d) * scaleW = v3 (ix3 (0 : Fin 1) r d) * scaleW
  exact congrArg (· * scaleW) (shapeCast_1ab_ab_apply v3 _ r d)

/-- An output entry: the softmax weights of row `r` of the scores applied to column `e` of the values. -/
theorem softTail_apply (s : FVec Ideal S1024x2048 .f32) (v9 : FVec Ideal S2048x128 .bf16) (r : Fin 1024) (e : Fin 128) :
    softTail s v9 (ix3 (0 : Fin 1) r e) = softDot (fun k : Fin 2048 => s (ix2 r k)) (fun k : Fin 2048 => v9 (ix2 k e)) := by
  unfold softTail
  (try dsimp only)
  refine (shapeCast_ab_1ab_apply _ _ 0 r e).trans ?_
  refine (out_apply _ _ r e).trans ?_
  unfold softDot
  refine Finset.sum_congr rfl fun k _ => ?_
  refine congrArg (· * v9 (ix2 k e)) ?_
  refine (weight_apply _ _ _ _).trans ?_
  refine congrArg₂ Ideal.div ?_ ?_
  · exact (expSub_apply _ _ _).trans
      (congrArg (fun z => Ideal.exp (s (ix2 r k) - z)) (rowMax_column_apply s _ _ _ _ _ r k))
  · refine (rowSum_column_apply _ _ _ _ _ _ r k).trans (Finset.sum_congr rfl fun j _ => ?_)
    exact (expSub_apply _ _ _).trans
      (congrArg (fun z => Ideal.exp (s (ix2 r j) - z)) (rowMax_column_apply s _ _ _ _ _ r j))

/-- The stored value at entry `(0, r, e)` of the output block. -/
theorem pay3_apply (v3 : FVec Ideal S1x1024x128 .f32) (v8 v9 : FVec Ideal S2048x128 .bf16) (r : Fin 1024) (e : Fin 128) :
    k0_pay3 (F := Ideal) v3 v8 v9 (ix3 (0 : Fin 1) r e)
      = softDot (scoreIn (fun d : Fin 128 => v3 (ix3 (0 : Fin 1) r d)) (fun (k : Fin 2048) (d : Fin 128) => v8 (ix2 k d)))
          (fun k : Fin 2048 => v9 (ix2 k e)) := by
  rw [pay3_split]
  refine (softTail_apply _ v9 r e).trans ?_
  exact congrArg (fun s => softDot s (fun k : Fin 2048 => v9 (ix2 k e))) (funext fun k => scoresOf_apply v3 v8 r k)

/-- What the first point of a head leaves in the key scratch: the key block itself (the change of format is the
    identity, the casts drop the block's leading unit axis). -/
theorem pay1_apply (v25 : FVec Ideal S1x2048x128 .f32) (k : Fin 2048) (d : Fin 128) :
    k0_pay1 (F := Ideal) v25 (ix2 k d) = v25 (ix3 (0 : Fin 1) k d) := by
  unfold k0_pay1
  (try dsimp only)
  rw [shapeCast_self]
  exact shapeCast_1ab_ab_apply v25 shapeCasts_S1x2048x128_S2048x128 k d

/-- The same for the value scratch. -/
theorem pay2_apply (v31 : FVec Ideal S1x2048x128 .f32) (k : Fin 2048) (d : Fin 128) :
    k0_pay2 (F := Ideal) v31 (ix2 k d) = v31 (ix3 (0 : Fin 1) k d) := by
  unfold k0_pay2
  (try dsimp only)
  rw [shapeCast_self]
  exact shapeCast_1ab_ab_apply v31 shapeCasts_S1x2048x128_S2048x128 k d

end Cert.KernelIdeal.RowValue

end
-- ==== Proof.KernelPoints.lean ====
/-
  What the output block and the two scratch buffers hold after every grid point.

  The grid runs over 32 heads and, within a head, over the two halves of its 2048 query rows; point `n` is half
  `n mod 2` of head `n / 2`. At the first half of a head the body copies the head's keys and values into the two
  scratch buffers and then computes the output block from the query half and the scratch; at the second half
  it finds the scratch as the first half left it and computes the output block from it. So after every point
  the scratch holds the keys and values of the point's own head, and the output block is the body's function of
  the query half and of those: by induction on the point, the second half of a head using what the first left.
-/
import proofs.«166822_j21723944583211_2_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Points

open Cert.KernelIdeal Cert.KernelIdeal.Gen Idealize.ShloMosaic Idealize.ShloMosaic.TcCoe Idealize.SL.Sem
open Idealize.ShloMosaic.Tactic Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one run of the body leaves, case by case -/

/-- At the first half of a head the key scratch is left at the key block, re-laid. -/
theorem sout_A_0 (c : Dev nD) (i : grid0.Coords) (arg2 : Memref sig .tc .vmem S1x1024x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S2048x128 .bf16) (harg6 : arg6.IsWhole) (arg7 : Memref sig .tc .vmem S2048x128 .bf16) (harg7 : arg7.IsWhole) (hc0 : cond0_0 i) (x0 : Vec F S1x1024x128 .f32) (x1 x2 : Vec F S1x2048x128 .f32) :
    sout0_A_0 c i arg2 harg2 arg3 harg3 arg4 harg4 arg5 harg5 arg6 harg6 arg7 harg7 hc0 x0 x1 x2 = k0_pay1 x1 := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg3.read_unread, View.ld_unit_zero (S := S1x2048x128) hz3]

/-- And the value scratch at the value block, re-laid. -/
theorem sout_A_1 (c : Dev nD) (i : grid0.Coords) (arg2 : Memref sig .tc .vmem S1x1024x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S2048x128 .bf16) (harg6 : arg6.IsWhole) (arg7 : Memref sig .tc .vmem S2048x128 .bf16) (harg7 : arg7.IsWhole) (hc0 : cond0_0 i) (x0 : Vec F S1x1024x128 .f32) (x1 x2 : Vec F S1x2048x128 .f32) :
    sout0_A_1 c i arg2 harg2 arg3 harg3 arg4 harg4 arg5 harg5 arg6 harg6 arg7 harg7 hc0 x0 x1 x2 = k0_pay2 x2 := by
  unfold sout0_A_1
  rw [View.read_writes_eq_canon _ _ _ (scover0_A_1 c i arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg4.read_unread, View.ld_unit_zero (S := S1x2048x128) hz3]

/-- At the first half of a head the output block is computed from the query block and from what was just stored
    into the two scratch buffers (a load of a buffer after one store covering it reads what was stored). -/
theorem out_A_3 (c : Dev nD) (i : grid0.Coords) (arg2 : Memref sig .tc .vmem S1x1024x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S2048x128 .bf16) (harg6 : arg6.IsWhole) (arg7 : Memref sig .tc .vmem S2048x128 .bf16) (harg7 : arg7.IsWhole) (hc0 : cond0_0 i) (x0 : Vec F S1x1024x128 .f32) (x1 x2 : Vec F S1x2048x128 .f32) :
    out0_A_3 c i arg2 harg2 arg3 harg3 arg4 harg4 arg5 harg5 arg6 harg6 arg7 harg7 hc0 x0 x1 x2 = k0_pay3 x0 (k0_pay1 x1) (k0_pay2 x2) := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero hz3]
  simp only [View.readAt_eq_ld, harg2.read_unread, harg3.read_unread, harg4.read_unread,
    View.ld_unit_zero (S := S1x1024x128) hz3, View.ld_unit_zero (S := S1x2048x128) hz3,
    View.readCov_unit_zero (S := S2048x128) _ hz2]

/-- At the second half of a head the output block is computed from the query block and from what the scratch
    buffers hold. -/
theorem out_B_3 (c : Dev nD) (i : grid0.Coords) (arg2 : Memref sig .tc .vmem S1x1024x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S2048x128 .bf16) (harg6 : arg6.IsWhole) (arg7 : Memref sig .tc .vmem S2048x128 .bf16) (harg7 : arg7.IsWhole) (hc0 : ¬cond0_0 i) (x0 : Vec F S1x1024x128 .f32) (x1 x2 : Vec F S1x2048x128 .f32)
    (xs0 xs1 : Vec F S2048x128 .bf16) :
    out0_B_3 c i arg2 harg2 arg3 harg3 arg4 harg4 arg5 harg5 arg6 harg6 arg7 harg7 hc0 x0 x1 x2 xs0 xs1 = k0_pay3 x0 xs0 xs1 := by
  unfold out0_B_3
  rw [View.read_writes_eq_canon _ _ _ (cover0_B_3 c i arg2 harg2 arg3 harg3 arg4 harg4 arg5 harg5 arg6 harg6 arg7 harg7 hc0 x0 x1 x2 xs0 xs1)]
  unfold kernelRun0_B
  dsimp only
  sl_unfold_words
  rw [View.canon_unit_zero hz3]
  simp only [View.readAt_eq_ld, harg2.read_unread, harg6.read_unread, harg7.read_unread,
    View.ld_unit_zero (S := S1x1024x128) hz3, View.ld_unit_zero (S := S2048x128) hz2]

/-! ## The blocks the windows read, by coordinates -/

/-- Head `b` of a `[32, 2048, 128]` array, as a `[1, 2048, 128]` block. -/
def headBlk (A : S32x2048x128.Idx → Elt F .f32) (b : ℕ) : Vec F S1x2048x128 .f32 :=
  fun y => A (ix3 (⟨b % 32, Nat.mod_lt _ (by norm_num)⟩ : Fin 32) (y 1 : Fin 2048) (y 2 : Fin 128))

/-- Half `q` of the rows of head `b` of a `[32, 2048, 128]` array, as a `[1, 1024, 128]` block. -/
def halfBlk (A : S32x2048x128.Idx → Elt F .f32) (b q : ℕ) : Vec F S1x1024x128 .f32 :=
  fun y => A (ix3 (⟨b % 32, Nat.mod_lt _ (by norm_num)⟩ : Fin 32)
    (⟨1024 * (q % 2) + (y 1 : Fin 1024).val, by have h1 : (y 1 : Fin 1024).val < 1024 := (y 1 : Fin 1024).isLt; have := Nat.mod_lt q (by norm_num : 0 < 2); omega⟩ : Fin 2048)
    (y 2 : Fin 128))

/-- The printed index maps, decided over the 64 points: the query and output windows sit at (head, half, 0), the key
    and value windows at (head, 0, 0). -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = t.val % 2 ∧ win0_3.index t (2 : Fin 3) = 0 :=
  (by decide +kernel : ∀ t : Fin grid0.N, _)

variable (m : (ℓ : Loc nD τ sig) → Buf (Elt F) ℓ)

/-- The query window's block at a point is the point's half of its head. -/
theorem iblk0_eq (c : Dev nD) (t : Fin cfg0.N) : iblk m c 0 t = halfBlk (V m c main_v0) (t.val / 2) (t.val % 2) := by
  obtain ⟨e0, e1, e2, -⟩ := idx_facts t
  have hN : t.val < 64 := lt_of_lt_of_eq t.isLt (show cfg0.N = 64 from N_0)
  funext y
  unfold iblk halfBlk
  rw [View.read_apply]
  show V m c main_v0 (((cfg0.win 0).blk t).view.emb y) = V m c main_v0 _
  refine congrArg (V m c main_v0) (funext fun a => Fin.ext ?_)
  match a with
  | ⟨0, _⟩ => show win0_0.index t (0 : Fin 3) * 1 + 1 * (y 0).val = (t.val / 2) % 32; have hy : (y 0).val < 1 := (y 0).isLt; omega
  | ⟨1, _⟩ => show win0_0.index t (1 : Fin 3) * 1024 + 1 * (y 1).val = 1024 * (t.val % 2 % 2) + (y 1).val; omega
  | ⟨2, _⟩ => show win0_0.index t (2 : Fin 3) * 128 + 1 * (y 2).val = (y 2).val; omega

/-- The key window's block at a point is the point's head. -/
theorem iblk1_eq (c : Dev nD) (t : Fin cfg0.N) : iblk m c 1 t = headBlk (V m c main_v1) (t.val / 2) := by
  obtain ⟨-, -, -, e0, e1, e2, -⟩ := idx_facts t
  have hN : t.val < 64 := lt_of_lt_of_eq t.isLt (show cfg0.N = 64 from N_0)
  funext y
  unfold iblk headBlk
  rw [View.read_apply]
  show V m c main_v1 (((cfg0.win 1).blk t).view.emb y) = V m c main_v1 _
  refine congrArg (V m c main_v1) (funext fun a => Fin.ext ?_)
  match a with
  | ⟨0, _⟩ => show win0_1.index t (0 : Fin 3) * 1 + 1 * (y 0).val = (t.val / 2) % 32; have hy : (y 0).val < 1 := (y 0).isLt; omega
  | ⟨1, _⟩ => show win0_1.index t (1 : Fin 3) * 2048 + 1 * (y 1).val = (y 1).val; omega
  | ⟨2, _⟩ => show win0_1.index t (2 : Fin 3) * 128 + 1 * (y 2).val = (y 2).val; omega

/-- The value window's block at a point is the point's head. -/
theorem iblk2_eq (c : Dev nD) (t : Fin cfg0.N) : iblk m c 2 t = headBlk (V m c main_v2) (t.val / 2) := by
  obtain ⟨-, -, -, -, -, -, e0, e1, e2, -⟩ := idx_facts t
  have hN : t.val < 64 := lt_of_lt_of_eq t.isLt (show cfg0.N = 64 from N_0)
  funext y
  unfold iblk headBlk
  rw [View.read_apply]
  show V m c main_v2 (((cfg0.win 2).blk t).view.emb y) = V m c main_v2 _
  refine congrArg (V m c main_v2) (funext fun a => Fin.ext ?_)
  match a with
  | ⟨0, _⟩ => show win0_2.index t (0 : Fin 3) * 1 + 1 * (y 0).val = (t.val / 2) % 32; have hy : (y 0).val < 1 := (y 0).isLt; omega
  | ⟨1, _⟩ => show win0_2.index t (1 : Fin 3) * 2048 + 1 * (y 1).val = (y 1).val; omega
  | ⟨2, _⟩ => show win0_2.index t (2 : Fin 3) * 128 + 1 * (y 2).val = (y 2).val; omega

/-! ## After every point -/

/-- After point `n`: the output block is the body's function of the query half and of the head's keys and values,
    and the two scratch buffers hold the head's keys and values. -/
theorem outsAt_eq (c : Dev nD) : ∀ (n : ℕ) (h : n < cfg0.N),
    outsAt0 m c n h
      = (k0_pay3 (halfBlk (V m c main_v0) (n / 2) (n % 2)) (k0_pay1 (headBlk (V m c main_v1) (n / 2))) (k0_pay2 (headBlk (V m c main_v2) (n / 2))),
         k0_pay1 (headBlk (V m c main_v1) (n / 2)), k0_pay2 (headBlk (V m c main_v2) (n / 2)))
  | 0, h => by
    rw [outsAt0_A m c ⟨0, h⟩ rfl, out_A_3, sout_A_0, sout_A_1, iblk0_eq m c ⟨0, h⟩, iblk1_eq m c ⟨0, h⟩, iblk2_eq m c ⟨0, h⟩]
  | n + 1, h => by
    by_cases h0 : (n + 1) % 2 = 0
    · rw [outsAt0_A m c ⟨n + 1, h⟩ h0, out_A_3, sout_A_0, sout_A_1, iblk0_eq m c ⟨n + 1, h⟩, iblk1_eq m c ⟨n + 1, h⟩, iblk2_eq m c ⟨n + 1, h⟩]
    · have ih := outsAt_eq c n (Nat.lt_of_succ_lt h)
      have e : (n + 1) / 2 = n / 2 := by omega
      rw [outsAt0_B m c ⟨n + 1, h⟩ h0, out_B_3]
      unfold sout0_B_0 sout0_B_1
      rw [iblk0_eq m c ⟨n + 1, h⟩]
      show (k0_pay3 _ (outsAt0 m c n _).2.1 (outsAt0 m c n _).2.2, (outsAt0 m c n _).2.1, (outsAt0 m c n _).2.2) = _
      rw [ih, e]

end Cert.KernelIdeal.Points

end
-- ==== Proof.Flat.lean ====
/-
  Attention over arrays whose batch and head axes are merged into one.

  A `[2, 16, 2048, 128]` array and the `[32, 2048, 128]` array with the same entries in row-major order hold entry
  `(b, h, r, d)` of the first at `(16 b + h, r, d)` of the second. Attention works head by head, so computing it
  over the merged arrays and splitting the head axis again is attention over the original ones.
-/
import proofs.«166822_j21723944583211_2_alg».proof.Proof.Spec

noncomputable section

open scoped BigOperators

namespace Cert.Attn

open Idealize.ShloMosaic Idealize.ShloMosaic.ValueIdx

/-- The merged shape: 32 heads of 2048 rows of 128 entries. -/
abbrev S3 : Shape := ⟨3, ![32, 2048, 128]⟩

/-- Attention over the merged `[32, 2048, 128]` arrays, entry `(b, r, e)`: query row `(b, r)`, scaled, against the
    keys of head `b`; the weights applied to column `e` of the values of head `b`. The scale is applied to the query
    row before the dot products. -/
def attn3 (Q K W : S3.Idx → EReal) (i : S3.Idx) : EReal :=
  softDot
    (scoreIn (fun d : Fin 128 => Q (ix3 (i 0 : Fin 32) (i 1 : Fin 2048) d))
      (fun (k : Fin 2048) (d : Fin 128) => K (ix3 (i 0 : Fin 32) k d)))
    (fun k : Fin 2048 => W (ix3 (i 0 : Fin 32) k (i 2 : Fin 128)))

/-- Merge the head axes of the three arrays, compute attention over the merged arrays, split the head axis of
    the result again. -/
def flatAttn (h43 : S4.ShapeCasts S3) (h34 : S3.ShapeCasts S4) (a0 a1 a2 : S4.Idx → EReal) : S4.Idx → EReal :=
  shapeCast S4 (attn3 (shapeCast S3 a0 h43) (shapeCast S3 a1 h43) (shapeCast S3 a2 h43)) h34

end Cert.Attn

end
-- ==== Proof.KernelValue.lean ====
/-
  The kernel's result array, as one function of its three argument arrays.

  The program flattens the three `[2, 16, 2048, 128]` arguments to `[32, 2048, 128]` (batch and head merged into one
  axis of 32 heads), runs the attention kernel over 32 heads × 2 halves of the query rows, and reshapes the
  `[32, 2048, 128]` result back. Each grid point writes back its own half of its own head, and the 64 halves tile
  the result, so the result array is attention of the flattened arrays, entry by entry; the reshapes before and
  after only rename the indices.
-/
import proofs.«166822_j21723944583211_2_alg».proof.Proof.KernelRow
import proofs.«166822_j21723944583211_2_alg».proof.Proof.KernelPoints
import proofs.«166822_j21723944583211_2_alg».proof.Proof.Flat
import Idealize.ShloMosaic.Lib.StableHlo.Run

noncomputable section

open scoped BigOperators

namespace Cert.KernelIdeal.AttnValue

open Cert.KernelIdeal Cert.KernelIdeal.Gen Idealize.ShloMosaic Idealize.ShloMosaic.TcCoe Idealize.SL.Sem
open Idealize.ShloMosaic.ValueIdx Cert.Attn Cert.KernelIdeal.Points Cert.KernelIdeal.RowValue
open Idealize.ShloMosaic.Pipeline (Dat)

/-- One entry of the block the body leaves from half `q` of head `b`: attention at row `1024 q + r` of head `b`. -/
theorem block_entry (Q K W : S32x2048x128.Idx → EReal) (b q : ℕ) (r : Fin 1024) (e : Fin 128) :
    k0_pay3 (F := Ideal) (halfBlk (F := Ideal) Q b q) (k0_pay1 (F := Ideal) (headBlk (F := Ideal) K b))
        (k0_pay2 (F := Ideal) (headBlk (F := Ideal) W b)) (ix3 (0 : Fin 1) r e)
      = attn3 Q K W (ix3 (⟨b % 32, Nat.mod_lt _ (by norm_num)⟩ : Fin 32)
          (⟨1024 * (q % 2) + r.val, by have := r.isLt; have := Nat.mod_lt q (by norm_num : 0 < 2); omega⟩ : Fin 2048) e) := by
  refine (pay3_apply _ _ _ r e).trans ?_
  have h1 : (fun (k : Fin 2048) (d : Fin 128) => k0_pay1 (F := Ideal) (headBlk (F := Ideal) K b) (ix2 k d))
      = fun (k : Fin 2048) (d : Fin 128) => K (ix3 (⟨b % 32, Nat.mod_lt _ (by norm_num)⟩ : Fin 32) k d) :=
    funext fun k => funext fun d => pay1_apply _ k d
  have h2 : (fun k : Fin 2048 => k0_pay2 (F := Ideal) (headBlk (F := Ideal) W b) (ix2 k e))
      = fun k : Fin 2048 => W (ix3 (⟨b % 32, Nat.mod_lt _ (by norm_num)⟩ : Fin 32) k e) :=
    funext fun k => pay2_apply _ k e
  rw [h1, h2]
  rfl

variable (m : (ℓ : Loc nD τ sig) → Buf (Elt Ideal) ℓ) (ρ : Dev nD → PrngReg)

/-- What point `t` writes back is its block of attention of the flattened arrays as the region finds them. -/
theorem flushed_eq (c : Dev nD) (t : Fin cfg0.N) :
    (dats m 0 c).flushed 3 t
      = ((cfg0.win 3).blk t).view.read (Elt Ideal) (attn3 (V m c main_v0) (V m c main_v1) (V m c main_v2)) := by
  obtain ⟨-, -, -, -, -, -, -, -, -, e0, e1, e2⟩ := idx_facts t
  have hN : t.val < 64 := lt_of_lt_of_eq t.isLt (show cfg0.N = 64 from N_0)
  show (cfg0.win 3).cut (grid0.coords t) ((dats m 0 c).after 3 t) = _
  rw [after0_3, outsAt_eq m c t.val t.isLt]
  funext y
  rw [View.read_apply]
  have hy : y = ix3 (0 : Fin 1) (y 1 : Fin 1024) (y 2 : Fin 128) := by
    funext a
    match a with
    | ⟨0, _⟩ => exact Fin.ext (by have h : (y 0).val < 1 := (y 0).isLt; show (y 0).val = 0; omega)
    | ⟨1, _⟩ => rfl
    | ⟨2, _⟩ => rfl
  obtain ⟨r, e, rfl⟩ : ∃ (r : Fin 1024) (e : Fin 128), y = ix3 (0 : Fin 1) r e := ⟨y 1, y 2, hy⟩
  show k0_pay3 (F := Ideal) (halfBlk (F := Ideal) (V m c main_v0) (t.val / 2) (t.val % 2))
      (k0_pay1 (F := Ideal) (headBlk (F := Ideal) (V m c main_v1) (t.val / 2)))
      (k0_pay2 (F := Ideal) (headBlk (F := Ideal) (V m c main_v2) (t.val / 2))) (ix3 (0 : Fin 1) r e)
    = attn3 (V m c main_v0) (V m c main_v1) (V m c main_v2) (((cfg0.win 3).blk t).view.emb (ix3 (0 : Fin 1) r e))
  refine (block_entry _ _ _ (t.val / 2) (t.val % 2) r e).trans ?_
  refine congrArg (attn3 (V m c main_v0) (V m c main_v1) (V m c main_v2)) (funext fun a => Fin.ext ?_)
  match a with
  | ⟨0, _⟩ => show (t.val / 2) % 32 = win0_3.index t (0 : Fin 3) * 1 + 1 * 0; omega
  | ⟨1, _⟩ => show 1024 * (t.val % 2 % 2) + r.val = win0_3.index t (1 : Fin 3) * 1024 + 1 * r.val; omega
  | ⟨2, _⟩ => show e.val = win0_3.index t (2 : Fin 3) * 128 + 1 * e.val; omega

/-- An index of the result array is in point `t`'s block iff each coordinate is in the block's range on its axis. -/
theorem mem_blk (t : Fin cfg0.N) (i : S32x2048x128.Idx) :
    i ∈ ((cfg0.win 3).blk t).view.set ↔ ∀ a : Fin 3, win0_3.index t a * S1x1024x128.size a ≤ (i a).val ∧ (i a).val < win0_3.index t a * S1x1024x128.size a + S1x1024x128.size a := by
  show i ∈ ((View.whole main_v3).slice (win0_3.rect t)).set ↔ _
  rw [View.set_slice_whole, Rect.mem_set_unit]
  exact Iff.rfl

/-- The 64 blocks tile the result array: entry `(b, r, e)` is in the block of point `2 b + r / 1024`. So after the
    region the result array is attention of the flattened arrays. -/
theorem final (c : Dev nD) :
    (dats m 0 c).arrAt 3 cfg0.N = attn3 (V m c main_v0) (V m c main_v1) (V m c main_v2) :=
  (dats m 0 c).arrAt_eq_of_cover 3 (attn3 (V m c main_v0) (V m c main_v1) (V m c main_v2)) (fun t _ => flushed_eq m c t) fun i => by
    have hi0 : (i 0).val < 32 := (i 0).isLt
    have hi1 : (i 1).val < 2048 := (i 1).isLt
    have hi2 : (i 2).val < 128 := (i 2).isLt
    have hN : cfg0.N = 64 := N_0
    refine ⟨⟨2 * (i 0).val + (i 1).val / 1024, by rw [hN]; omega⟩, flush0_3 _, ?_⟩
    obtain ⟨-, -, -, -, -, -, -, -, -, e0, e1, e2⟩ := idx_facts ⟨2 * (i 0).val + (i 1).val / 1024, by rw [hN]; omega⟩
    rw [mem_blk]
    intro a
    match a with
    | ⟨0, _⟩ => show win0_3.index _ (0 : Fin 3) * 1 ≤ (i 0).val ∧ (i 0).val < win0_3.index _ (0 : Fin 3) * 1 + 1; rw [e0]; show (2 * (i 0).val + (i 1).val / 1024) / 2 * 1 ≤ (i 0).val ∧ (i 0).val < (2 * (i 0).val + (i 1).val / 1024) / 2 * 1 + 1; omega
    | ⟨1, _⟩ => show win0_3.index _ (1 : Fin 3) * 1024 ≤ (i 1).val ∧ (i 1).val < win0_3.index _ (1 : Fin 3) * 1024 + 1024; rw [e1]; show (2 * (i 0).val + (i 1).val / 1024) % 2 * 1024 ≤ (i 1).val ∧ (i 1).val < (2 * (i 0).val + (i 1).val / 1024) % 2 * 1024 + 1024; omega
    | ⟨2, _⟩ => show win0_3.index _ (2 : Fin 3) * 128 ≤ (i 2).val ∧ (i 2).val < win0_3.index _ (2 : Fin 3) * 128 + 128; rw [e2]; omega

/-- The three arrays the region finds are the arguments, flattened. -/
theorem V_v0 (c : Dev nD) : (V m c main_v0 : S32x2048x128.Idx → EReal)
    = shapeCast S32x2048x128 (m ((c : Thread nD τ).loc main_arg0)) shapeCasts_S2x16x2048x128_S32x2048x128 := by
  show StableHlo.after hostOps0 (fun b => m (c, b)) (Proc.devRef .tc main_v0) = _
  after_results
  rfl
theorem V_v1 (c : Dev nD) : (V m c main_v1 : S32x2048x128.Idx → EReal)
    = shapeCast S32x2048x128 (m ((c : Thread nD τ).loc main_arg1)) shapeCasts_S2x16x2048x128_S32x2048x128 := by
  show StableHlo.after hostOps0 (fun b => m (c, b)) (Proc.devRef .tc main_v1) = _
  after_results
  rfl
theorem V_v2 (c : Dev nD) : (V m c main_v2 : S32x2048x128.Idx → EReal)
    = shapeCast S32x2048x128 (m ((c : Thread nD τ).loc main_arg2)) shapeCasts_S2x16x2048x128_S32x2048x128 := by
  show StableHlo.after hostOps0 (fun b => m (c, b)) (Proc.devRef .tc main_v2) = _
  after_results
  rfl

/-- The program's result: attention of the flattened arguments, reshaped back. -/
abbrev result (a0 a1 a2 : S2x16x2048x128.Idx → EReal) : S2x16x2048x128.Idx → EReal :=
  flatAttn shapeCasts_S2x16x2048x128_S32x2048x128 shapeCasts_S32x2048x128_S2x16x2048x128 a0 a1 a2

/-- The reshape after the region reads the region's result array. -/
theorem tail_eq (c : Dev nD) :
    Pipeline.afterTail₀ cfgs (dats m) 0 (V0 m) [hostOps1] c main_v4
      = result (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = attn3 (shapeCast S32x2048x128 (m ((c : Thread nD τ).loc main_arg0)) shapeCasts_S2x16x2048x128_S32x2048x128)
          (shapeCast S32x2048x128 (m ((c : Thread nD τ).loc main_arg1)) shapeCasts_S2x16x2048x128_S32x2048x128)
          (shapeCast S32x2048x128 (m ((c : Thread nD τ).loc main_arg2)) shapeCasts_S2x16x2048x128_S32x2048x128) :=
    ((Pipeline.withArrays_arr spec0 launch0.win.arr_inj c _ _ 3).trans (final m c)).trans
      (by rw [V_v0 m c, V_v1 m c, V_v2 m c])
  rw [hw]
  rfl

/-- The run, read: the result at `result` of the arguments, the arguments unchanged. -/
theorem run : θ_run defs (onTc (τ := τ) (main (F := Ideal))) ⟨m, fun _ => 0, ρ⟩ fun r => ∀ c : Dev nD,
      r.2.mem ((c.tc : Thread nD τ).loc main_v4)
        = result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.AttnValue

end
-- ==== Proof.RefAttn.lean ====
/-
  The reference program's result, entry by entry, is the attention of the specification.

  Entry `(b, h, r, e)` of the reference's last stage is the sum over the keys `k` of the weight of `k` in row
  `(b, h, r)` times the value entry `(b, h, k, e)`. The weight is the exponential of the score of `k` less the row's
  greatest score, divided by the sum of those exponentials over the row; the score is the dot product of query row
  `(b, h, r)` with key row `(b, h, k)`, times the scale. The row's greatest score is a fold of `max` from the word of
  `-∞` over the row; the reference then takes the greater of that same word and the fold, which is the fold again,
  because a fold of `max` is never below the value it starts from.
-/
import proofs.«166822_j21723944583211_2_alg».proof.Proof.Gen.ReferenceIdeal.Read
import proofs.«166822_j21723944583211_2_alg».proof.Proof.Spec
import Idealize.ShloMosaic.PureOps.Ideal.Laws
import Idealize.ShloMosaic.PureOps.Reduce
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Attn

/-- The arrays the reference takes: `[2, 16, 2048, 128]` extended reals. -/
abbrev Arr : Type := (⟨S2x16x2048x128, .f32⟩ : BufTy).Contents (Elt Ideal)

/-- The scores of query row `(b, h, r)` as the reference computes them: one per key. -/
def scores (x0 x1 : Arr) (b : Fin 2) (h : Fin 16) (r : Fin 2048) : Fin 2048 → EReal :=
  fun k => val_main_v2 (F := Ideal) x0 x1 (ix4 b h r k)

/-- A score is the dot product of the query row with the key row, times the scale. -/
theorem v2_apply (x0 x1 : Arr) (b : Fin 2) (h : Fin 16) (r : Fin 2048) (k : Fin 2048) :
    val_main_v2 (F := Ideal) x0 x1 (ix4 b h r k)
      = scoreOut (fun d : Fin 128 => x0 (ix4 b h r d)) (fun (k : Fin 2048) (d : Fin 128) => x1 (ix4 b h k d)) k := by
  rw [val_main_v2_apply, val_main_v0_apply, val_main_v1_apply, val_main_cst_apply, Ideal.mulf_def, Ideal.ofBits_def]
  unfold scoreOut scaleW
  refine congrArg (· * _) (Finset.sum_congr rfl fun d _ => ?_)
  have el : lidx_main_v0 (ix4 b h r k) d = ix4 b h r d := funext fun a => Fin.ext (by
    match a with | ⟨0, _⟩ => rfl | ⟨1, _⟩ => rfl | ⟨2, _⟩ => rfl | ⟨3, _⟩ => rfl)
  have er : ridx_main_v0 (ix4 b h r k) d = ix4 b h k d := funext fun a => Fin.ext (by
    match a with | ⟨0, _⟩ => rfl | ⟨1, _⟩ => rfl | ⟨2, _⟩ => rfl | ⟨3, _⟩ => rfl)
  rw [el, er]

/-- The row's scores are the specification's scores. -/
theorem scores_eq (x0 x1 : Arr) (b : Fin 2) (h : Fin 16) (r : Fin 2048) :
    scores x0 x1 b h r
      = scoreOut (fun d : Fin 128 => x0 (ix4 b h r d)) (fun (k : Fin 2048) (d : Fin 128) => x1 (ix4 b h k d)) :=
  funext fun k => v2_apply x0 x1 b h r k

/-- A reduction by `max` over the last axis of a `[2, 16, 2048, 2048]` array, at `(b, h, r)`: the fold of `max`, from
    the initial value, over the 2048 entries of row `(b, h, r)`. The index of the row's entry `k` is `(b, h, r, k)`. -/
theorem reduce_max_row (x : FVec Ideal ⟨4, ![2, 16, 2048, 2048]⟩ .f32) (init : FVec Ideal ⟨0, ![]⟩ .f32)
    (h' : (⟨4, ![2, 16, 2048, 2048]⟩ : Shape).ReducesTo [3] (⟨3, ![2, 16, 2048]⟩ : Shape))
    (hu : 0 < (⟨0, ![]⟩ : Shape).numel) (b : Fin 2) (h : Fin 16) (r : Fin 2048) :
    Host.reduce FloatOps.maximumf x init h' hu (ix3 b h r)
      = (Finset.univ : Finset (Fin 2048)).fold max (init (Shape.Idx.first hu)) (fun k : Fin 2048 => x (ix4 b h r k)) := by
  have hR : (⟨4, ![2, 16, 2048, 2048]⟩ : Shape).Reduces [3] (⟨3, ![2, 16, 2048]⟩ : Shape) := by decide
  rw [Host.reduce_eq_fold_single FloatOps.maximumf x _ h' hR hu]
  have hf : (x ∘ hR.lift (ix3 b h r)) = fun k : Fin 2048 => x (ix4 b h r k) :=
    funext fun k => congrArg x (funext fun a => Fin.ext (by
      match a with | ⟨0, _⟩ => rfl | ⟨1, _⟩ => rfl | ⟨2, _⟩ => rfl | ⟨3, _⟩ => rfl))
  exact congrArg (fun f => Finset.fold max (init (Shape.Idx.first hu)) f (Finset.univ : Finset (Fin 2048))) hf

/-- The reference's reduction by `max`, at row `(b, h, r)`: the fold of `max` from the word of `-∞` over the row's
    scores. -/
theorem v3_apply (x0 x1 : Arr) (b : Fin 2) (h : Fin 16) (r : Fin 2048) :
    val_main_v3 (F := Ideal) x0 x1 (ix3 b h r) = rowMax (scores x0 x1 b h r) := by
  unfold val_main_v3 scores rowMax
  generalize val_main_v2 (F := Ideal) x0 x1 = y
  exact reduce_max_row y (val_main_cst_0 (F := Ideal)) _ _ b h r

/-- The greater of the word of `-∞` and the row's maximum is the row's maximum: the fold starts from that word. -/
theorem v5_apply (x0 x1 : Arr) (b : Fin 2) (h : Fin 16) (r : Fin 2048) :
    val_main_v5 (F := Ideal) x0 x1 (ix3 b h r) = rowMax (scores x0 x1 b h r) := by
  rw [val_main_v5_apply, val_main_v4_apply, val_main_cst_1_apply, v3_apply, Ideal.maximumf_def, Ideal.ofBits_def]
  unfold rowMax
  exact max_eq_right ((Finset.le_fold_max _).mpr (Or.inl le_rfl))

/-- The exponential of a score less the row's maximum. -/
theorem v9_apply (x0 x1 : Arr) (b : Fin 2) (h : Fin 16) (r : Fin 2048) (k : Fin 2048) :
    val_main_v9 (F := Ideal) x0 x1 (ix4 b h r k)
      = Ideal.exp (scores x0 x1 b h r k - rowMax (scores x0 x1 b h r)) := by
  have e : idx_main_v6 (idx_main_v7 (ix4 b h r k)) = ix3 b h r := funext fun a => Fin.ext (by
    match a with | ⟨0, _⟩ => rfl | ⟨1, _⟩ => rfl | ⟨2, _⟩ => rfl)
  rw [val_main_v9_apply, val_main_v8_apply, val_main_v7_apply, val_main_v6_apply, e, v5_apply,
    Ideal.hostUnary_exp_def, Ideal.subf_def]
  rfl

/-- The sum of those exponentials over the row. -/
theorem v10_apply (x0 x1 : Arr) (b : Fin 2) (h : Fin 16) (r : Fin 2048) :
    val_main_v10 (F := Ideal) x0 x1 (ix3 b h r)
      = ∑ j : Fin 2048, Ideal.exp (scores x0 x1 b h r j - rowMax (scores x0 x1 b h r)) := by
  rw [val_main_v10_apply, val_main_cst_2_apply, Ideal.ofBits_def, Ideal.ofBits_zero_f32, zero_add]
  refine Finset.sum_congr rfl fun j _ => ?_
  have e : idx_main_v10 (ix3 b h r) j = ix4 b h r j := funext fun a => Fin.ext (by
    match a with | ⟨0, _⟩ => rfl | ⟨1, _⟩ => rfl | ⟨2, _⟩ => rfl | ⟨3, _⟩ => rfl)
  rw [e, v9_apply]

/-- The weight of key `k` in row `(b, h, r)`. -/
theorem v13_apply (x0 x1 : Arr) (b : Fin 2) (h : Fin 16) (r : Fin 2048) (k : Fin 2048) :
    val_main_v13 (F := Ideal) x0 x1 (ix4 b h r k)
      = Ideal.div (Ideal.exp (scores x0 x1 b h r k - rowMax (scores x0 x1 b h r)))
          (∑ j : Fin 2048, Ideal.exp (scores x0 x1 b h r j - rowMax (scores x0 x1 b h r))) := by
  have e : idx_main_v11 (idx_main_v12 (ix4 b h r k)) = ix3 b h r := funext fun a => Fin.ext (by
    match a with | ⟨0, _⟩ => rfl | ⟨1, _⟩ => rfl | ⟨2, _⟩ => rfl)
  rw [val_main_v13_apply, val_main_v12_apply, val_main_v11_apply, e, v9_apply, v10_apply, Ideal.hostDivf_def]

/-- The specification's attention at an entry given by its coordinates. -/
theorem attn4_ix4 (x0 x1 x2 : S4.Idx → EReal) (b : Fin 2) (h : Fin 16) (r : Fin 2048) (e : Fin 128) :
    attn4 x0 x1 x2 (ix4 b h r e)
      = softDot (scoreOut (fun d : Fin 128 => x0 (ix4 b h r d)) (fun (k : Fin 2048) (d : Fin 128) => x1 (ix4 b h k d)))
          (fun k : Fin 2048 => x2 (ix4 b h k e)) := rfl

/-- The reference's result is the specification's attention of its three arguments. -/
theorem ref_eq (x0 x1 x2 : (⟨Cert.ReferenceIdeal.S2x16x2048x128, .f32⟩ : BufTy).Contents (Elt Ideal)) :
    Cert.ReferenceIdeal.Read.val_main_v14 (F := Ideal) x0 x1 x2 = Cert.Attn.attn4 x0 x1 x2 := by
  funext i
  obtain ⟨b, h, r, e, rfl⟩ : ∃ (b : Fin 2) (h : Fin 16) (r : Fin 2048) (e : Fin 128), i = ix4 b h r e :=
    ⟨i 0, i 1, i 2, i 3, eq_ix4 i⟩
  rw [val_main_v14_apply, attn4_ix4, ← scores_eq]
  unfold softDot
  refine Finset.sum_congr rfl fun k _ => ?_
  have el : lidx_main_v14 (ix4 b h r e) k = ix4 b h r k := funext fun a => Fin.ext (by
    match a with | ⟨0, _⟩ => rfl | ⟨1, _⟩ => rfl | ⟨2, _⟩ => rfl | ⟨3, _⟩ => rfl)
  have er : ridx_main_v14 (ix4 b h r e) k = ix4 b h k e := funext fun a => Fin.ext (by
    match a with | ⟨0, _⟩ => rfl | ⟨1, _⟩ => rfl | ⟨2, _⟩ => rfl | ⟨3, _⟩ => rfl)
  rw [el, er, v13_apply]

end Cert.ReferenceIdeal.RefValue

end
-- ==== Proof.Finite.lean ====
/-
  From the printed finiteness predicate to "every entry is a real number".

  The predicate compares the absolute value of every entry of the three inputs with the f32 word of +∞,
  takes the conjunction over all four axes of each input, and joins the three results. If the whole is true
  then every entry has absolute value below +∞ on the extended reals, so it is neither +∞ nor -∞: it is a
  real number.
-/
import proofs.«166822_j21723944583211_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Attn.Finite

open Idealize.ShloMosaic

/-- An extended real whose absolute value `max x (-x)` lies strictly below the f32 word of +∞ is a real
    number: at +∞ and at -∞ the absolute value is +∞ itself. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

/-- The scalar shape has one index. -/
instance : Subsingleton Cert.Pre_finite_inputs.S_.Idx := ⟨fun _ _ => funext fun d => d.elim0⟩

/-- If the printed predicate holds of the three inputs, every entry of each is a real number. -/
theorem real_of_pre [Cert.Pre_finite_inputs.Facts] (a0 a1 a2 : FVec Ideal Cert.Pre_finite_inputs.S2x16x2048x128 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨fun i => real_of_abs_lt_inf (a0 i) (Host.reduce_andi_all _ _ _ _ _ h0' i),
    fun i => real_of_abs_lt_inf (a1 i) (Host.reduce_andi_all _ _ _ _ _ h1 i),
    fun i => real_of_abs_lt_inf (a2 i) (Host.reduce_andi_all _ _ _ _ _ h2 i)⟩

end Cert.Attn.Finite

end
-- ==== Proof.FlatBridge.lean ====
/-
  Attention over the merged arrays, split again, is attention over the original arrays.

  Merging the first two axes of a `[2, 16, 2048, 128]` array puts entry `(b, h, r, d)` at `(16 b + h, r, d)`: both
  have row-major position `((16 b + h) · 2048 + r) · 128 + d`. Attention at head `16 b + h` of the merged arrays reads
  only entries of that head, which are the entries of head `(b, h)` of the original arrays; and for real queries
  and keys the scale may be applied to the query row or to the dot product alike.
-/
import proofs.«166822_j21723944583211_2_alg».proof.Proof.Flat
import Idealize.ShloMosaic.Lib.Pipeline.Value
import Idealize.ShloMosaic.Lib.ValueIdx

noncomputable section

open scoped BigOperators

namespace Cert.Attn

open Idealize.ShloMosaic Idealize.ShloMosaic.ValueIdx

/-- The merged head index of batch `b` and head `h`: `16 b + h`. -/
def headOf (b : Fin 2) (h : Fin 16) : Fin 32 := ⟨16 * b.val + h.val, by omega⟩

/-- The merged array at `(16 b + h, r, d)` is the original at `(b, h, r, d)`. -/
theorem merge_apply {α : Type} (x : S4.Idx → α) (h43 : S4.ShapeCasts S3) (b : Fin 2) (h : Fin 16) (r : Fin 2048)
    (d : Fin 128) : shapeCast S3 x h43 (ix3 (headOf b h) r d) = x (ix4 b h r d) :=
  shapeCast_apply x h43 _ _ (by
    rw [Shape.rowMajor_val_four, Shape.rowMajor_val_three]
    show ((b.val * 16 + h.val) * 2048 + r.val) * 128 + d.val = ((16 * b.val + h.val) * 2048 + r.val) * 128 + d.val
    omega)

/-- A `[32, 2048, 128]` array split into `[2, 16, 2048, 128]` reads, at `(b, h, r, d)`, its entry `(16 b + h, r, d)`. -/
theorem split_apply {α : Type} (y : S3.Idx → α) (h34 : S3.ShapeCasts S4) (b : Fin 2) (h : Fin 16) (r : Fin 2048)
    (d : Fin 128) : shapeCast S4 y h34 (ix4 b h r d) = y (ix3 (headOf b h) r d) :=
  shapeCast_apply y h34 _ _ (by
    rw [Shape.rowMajor_val_three, Shape.rowMajor_val_four]
    show ((16 * b.val + h.val) * 2048 + r.val) * 128 + d.val = ((b.val * 16 + h.val) * 2048 + r.val) * 128 + d.val
    omega)

/-- Attention over the merged arrays at an entry given by its coordinates. -/
theorem attn3_ix3 (Q K W : S3.Idx → EReal) (m : Fin 32) (r : Fin 2048) (e : Fin 128) :
    attn3 Q K W (ix3 m r e)
      = softDot (scoreIn (fun d : Fin 128 => Q (ix3 m r d)) (fun (k : Fin 2048) (d : Fin 128) => K (ix3 m k d)))
          (fun k : Fin 2048 => W (ix3 m k e)) := rfl

/-- Attention over the original arrays at an entry given by its coordinates. -/
theorem attn4_ix4' (x0 x1 x2 : S4.Idx → EReal) (b : Fin 2) (h : Fin 16) (r : Fin 2048) (e : Fin 128) :
    attn4 x0 x1 x2 (ix4 b h r e)
      = softDot (scoreOut (fun d : Fin 128 => x0 (ix4 b h r d)) (fun (k : Fin 2048) (d : Fin 128) => x1 (ix4 b h k d)))
          (fun k : Fin 2048 => x2 (ix4 b h k e)) := rfl

/-- For real queries and keys, attention over the merged arrays, split again, is attention over the original
    arrays. -/
theorem flatAttn_eq_attn4 (h43 : S4.ShapeCasts S3) (h34 : S3.ShapeCasts S4) (a0 a1 a2 : S4.Idx → EReal)
    (r0 : ∀ i, ∃ r : ℝ, a0 i = (r : EReal)) (r1 : ∀ i, ∃ r : ℝ, a1 i = (r : EReal)) :
    flatAttn h43 h34 a0 a1 a2 = attn4 a0 a1 a2 := by
  funext i
  obtain ⟨b, h, r, e, rfl⟩ : ∃ (b : Fin 2) (h : Fin 16) (r : Fin 2048) (e : Fin 128), i = ix4 b h r e :=
    ⟨i 0, i 1, i 2, i 3, eq_ix4 i⟩
  unfold flatAttn
  rw [split_apply, attn3_ix3, attn4_ix4']
  have hq : (fun d : Fin 128 => shapeCast S3 a0 h43 (ix3 (headOf b h) r d)) = fun d : Fin 128 => a0 (ix4 b h r d) :=
    funext fun d => merge_apply a0 h43 b h r d
  have hk : (fun (k : Fin 2048) (d : Fin 128) => shapeCast S3 a1 h43 (ix3 (headOf b h) k d))
      = fun (k : Fin 2048) (d : Fin 128) => a1 (ix4 b h k d) :=
    funext fun k => funext fun d => merge_apply a1 h43 b h k d
  have hv : (fun k : Fin 2048 => shapeCast S3 a2 h43 (ix3 (headOf b h) k e)) = fun k : Fin 2048 => a2 (ix4 b h k e) :=
    funext fun k => merge_apply a2 h43 b h k e
  rw [hq, hk, hv, scoreIn_eq_scoreOut _ _ (fun d => r0 _) (fun k d => r1 _)]

end Cert.Attn

end
-- ==== Proof.lean ====
/-
  The certificate of the attention kernel against its jnp reference, over the extended reals.

  Both programs compute, for every batch, head and query row, the softmax of the scaled dot products of the
  query row with the 2048 key rows, and apply the weights to the value rows. They differ in three ways, none of
  which changes an entry of the result when the inputs are finite:
  * the kernel works on the arrays with batch and head merged into one axis of 32 heads, one half of a head's
    query rows per grid point, keeping the head's keys and values in scratch memory from the first half to the
    second; the reshapes only rename indices, and the 64 blocks written back tile the result;
  * the kernel narrows the operands of its two matrix products to a shorter float format, which is the identity
    on the extended reals, and its matrix products and row sums are the same sums as the reference's;
  * the kernel scales the query rows before the dot products, the reference scales the dot products: for finite
    queries and keys both are `(∑ q·k)·c` in the reals. This is the one place the precondition is used.
  The reference also takes the greatest score against `-∞` once more, which changes nothing.
-/
import proofs.«166822_j21723944583211_2_alg».proof.Defs
import proofs.«166822_j21723944583211_2_alg».proof.Proof.Gen.Kernel
import proofs.«166822_j21723944583211_2_alg».proof.Proof.Gen.Kernel.Frame
import proofs.«166822_j21723944583211_2_alg».proof.Proof.Gen.KernelIdeal
import proofs.«166822_j21723944583211_2_alg».proof.Proof.Gen.KernelIdeal.Frame
import proofs.«166822_j21723944583211_2_alg».proof.Proof.Gen.ReferenceIdeal
import proofs.«166822_j21723944583211_2_alg».proof.Proof.Gen.ReferenceIdeal.Run
import proofs.«166822_j21723944583211_2_alg».proof.Proof.Gen.ReferenceIdeal.Read
import proofs.«166822_j21723944583211_2_alg».proof.Proof.Gen.Pre_finite_inputs
import proofs.«166822_j21723944583211_2_alg».proof.Proof.KernelValue
import proofs.«166822_j21723944583211_2_alg».proof.Proof.RefAttn
import proofs.«166822_j21723944583211_2_alg».proof.Proof.Finite
import proofs.«166822_j21723944583211_2_alg».proof.Proof.FlatBridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories that agree on finite arguments both programs end with attention of the arguments in their
    result arrays: the kernel by its blocks and the law of the scale, the reference operation by operation. -/
theorem algebraic : Cert.algebraic_KernelIdeal_ReferenceIdeal := by
  intro m ρ m' ρ' hpre hagree
  refine ⟨fun c => Cert.Attn.attn4
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.AttnValue.run m ρ)
    obtain ⟨r0, r1, -⟩ := Cert.Attn.Finite.real_of_pre _ _ _ (hpre c)
    exact Cert.Attn.flatAttn_eq_attn4 _ _ _ _ _ r0 r1
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, Cert.ReferenceIdeal.RefValue.ref_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
